-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S8388608x2 : Shape := ⟨2, ![8388608, 2]⟩
abbrev S2 : Shape := ⟨1, ![2]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel
  bcast_S_S8388608x2 : S_.BroadcastsInDim S8388608x2 (![] : Fin 0 → Fin S8388608x2.rank)
  reducesTo_S8388608x2_S_d0_1 : S8388608x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S8388608x2 .f32) (main_arg5 : FVec F S2 .f32) (main_v13 : IVec S_ 1) (main_v16 : IVec S8388608 1) : IVec S_ 1 :=
  let main_c_5 : IVec S_ 1 := constantI S_ 1 1#1
  let main_v17 : IVec S_ 1 := (fun x v => Host.reduce IntOp.andi x v reducesTo_S8388608_S_d0 h_S_) main_v16 main_c_5
  let main_v18 : IVec S_ 1 := andi main_v13 main_v17
  let main_v19 : FVec F S8388608x2 .f32 := Host.absf main_arg4
  let main_cst_6 : FVec F S_ .f32 := constant S_ .f32 0x7F800000#32
  let main_v20 : FVec F S8388608x2 .f32 := broadcastInDim S8388608x2 ![] bcast_S_S8388608x2 main_cst_6
  let main_v21 : IVec S8388608x2 1 := cmpf .olt main_v19 main_v20
  let main_c_7 : IVec S_ 1 := constantI S_ 1 1#1
  let main_v22 : IVec S_ 1 := (fun x v => Host.reduce IntOp.andi x v reducesTo_S8388608x2_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S8388608 .f32) (main_arg1 : FVec F S8388608 .f32) (main_arg2 : FVec F S8388608 .f32) (main_arg3 : FVec F S8388608 .f32) (main_arg4 : FVec F S8388608x2 .f32) (main_arg5 : FVec F S2 .f32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  let main_v4 : FVec F S8388608 .f32 := Host.absf main_arg1
  let main_cst_0 : FVec F S_ .f32 := constant S_ .f32 0x7F800000#32
  let main_v5 : FVec F S8388608 .f32 := broadcastInDim S8388608 ![] bcast_S_S8388608 main_cst_0
  let main_v6 : IVec S8388608 1 := cmpf .olt main_v4 main_v5
  let main_c_1 : IVec S_ 1 := constantI S_ 1 1#1
  let main_v7 : IVec S_ 1 := (fun x v => Host.reduce IntOp.andi x v reducesTo_S8388608_S_d0 h_S_) main_v6 main_c_1
  let main_v8 : IVec S_ 1 := andi main_v3 main_v7
  let main_v9 : FVec F S8388608 .f32 := Host.absf main_arg2
  let main_cst_2 : FVec F S_ .f32 := constant S_ .f32 0x7F800000#32
  let main_v10 : FVec F S8388608 .f32 := broadcastInDim S8388608 ![] bcast_S_S8388608 main_cst_2
  let main_v11 : IVec S8388608 1 := cmpf .olt main_v9 main_v10
  let main_c_3 : IVec S_ 1 := constantI S_ 1 1#1
  let main_v12 : IVec S_ 1 := (fun x v => Host.reduce IntOp.andi x v reducesTo_S8388608_S_d0 h_S_) main_v11 main_c_3
  let main_v13 : IVec S_ 1 := andi main_v8 main_v12
  let main_v14 : FVec F S8388608 .f32 := Host.absf main_arg3
  let main_cst_4 : FVec F S_ .f32 := constant S_ .f32 0x7F800000#32
  let main_v15 : FVec F S8388608 .f32 := broadcastInDim S8388608 ![] bcast_S_S8388608 main_cst_4
  let main_v16 : IVec S8388608 1 := cmpf .olt main_v14 main_v15
  fn_part1 (F := F) main_arg4 main_arg5 main_v13 main_v16
-- ==== Kernel.lean ====
abbrev S8388608 : Shape := ⟨1, ![8388608]⟩
abbrev S8388608x2 : Shape := ⟨2, ![8388608, 2]⟩
abbrev S2 : Shape := ⟨1, ![2]⟩
abbrev S8388608x4 : Shape := ⟨2, ![8388608, 4]⟩
abbrev S262144 : Shape := ⟨1, ![262144]⟩
abbrev S262144x2 : Shape := ⟨2, ![262144, 2]⟩
abbrev S262144x4 : Shape := ⟨2, ![262144, 4]⟩
abbrev S262144x1 : Shape := ⟨2, ![262144, 1]⟩
abbrev S1 : Shape := ⟨1, ![1]⟩

abbrev nBuf : Space → Nat
  | .hbm => 7
  | .vmem => 13
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S8388608, .f32⟩
  | .hbm, ⟨3, _⟩ => ⟨S8388608, .f32⟩
  | .hbm, ⟨4, _⟩ => ⟨S8388608x2, .f32⟩
  | .hbm, ⟨5, _⟩ => ⟨S2, .f32⟩
  | .hbm, ⟨6, _⟩ => ⟨S8388608x4, .f32⟩
  | .local _ .vmem, ⟨0, _⟩ => ⟨S262144, .f32⟩
  | .local _ .vmem, ⟨1, _⟩ => ⟨S262144, .f32⟩
  | .local _ .vmem, ⟨2, _⟩ => ⟨S262144, .f32⟩
  | .local _ .vmem, ⟨3, _⟩ => ⟨S262144, .f32⟩
  | .local _ .vmem, ⟨4, _⟩ => ⟨S262144, .f32⟩
  | .local _ .vmem, ⟨5, _⟩ => ⟨S262144, .f32⟩
  | .local _ .vmem, ⟨6, _⟩ => ⟨S262144, .f32⟩
  | .local _ .vmem, ⟨7, _⟩ => ⟨S262144, .f32⟩
  | .local _ .vmem, ⟨8, _⟩ => ⟨S262144x2, .f32⟩
  | .local _ .vmem, ⟨9, _⟩ => ⟨S262144x2, .f32⟩
  | .local _ .vmem, ⟨10, _⟩ => ⟨S2, .f32⟩
  | .local _ .vmem, ⟨11, _⟩ => ⟨S262144x4, .f32⟩
  | .local _ .vmem, ⟨12, _⟩ => ⟨S262144x4, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S262144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S262144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S262144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S262144x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S262144x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S262144_S262144_0 : ∀ a, (![0] : Fin 1 → Nat) a + S262144.size a ≤ S262144.size a
  h_S262144 : 0 < S262144.numel
  inb_S262144x2_S262144x1_0_0 : ∀ a, (![0, 0] : Fin 2 → Nat) a + S262144x1.size a ≤ S262144x2.size a
  h_S262144x1 : 0 < S262144x1.numel
  shapeCasts_S262144x1_S262144 : S262144x1.ShapeCasts S262144
  inb_S262144x2_S262144x1_0_1 : ∀ a, (![0, 1] : Fin 2 → Nat) a + S262144x1.size a ≤ S262144x2.size a
  inb_S2_S2_0 : ∀ a, (![0] : Fin 1 → Nat) a + S2.size a ≤ S2.size a
  h_S2 : 0 < S2.numel
  slices_S2_o0_S1 : S2.Slices ![0] S1
  inpos_S1_p0 : ∀ a, (![0] : Fin 1 → Nat) a < S1.size a
  slices_S2_o1_S1 : S2.Slices ![1] S1
  inb_S262144x4_S262144x1_0_0 : ∀ a, (![0, 0] : Fin 2 → Nat) a + S262144x1.size a ≤ S262144x4.size a
  shapeCasts_S262144_S262144x1 : S262144.ShapeCasts S262144x1
  inb_S262144x4_S262144x1_0_1 : ∀ a, (![0, 1] : Fin 2 → Nat) a + S262144x1.size a ≤ S262144x4.size a
  inb_S262144x4_S262144x1_0_2 : ∀ a, (![0, 2] : Fin 2 → Nat) a + S262144x1.size a ≤ S262144x4.size a
  inb_S262144x4_S262144x1_0_3 : ∀ a, (![0, 3] : Fin 2 → Nat) a + S262144x1.size a ≤ S262144x4.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S262144.size a ≤ S8388608.size a
  hwx0_0 : ∀ i : grid0.Coords, EltTy.bits .f32 = 32 ∨ (Rect.block (s := S8388608) S262144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S262144.size a ≤ S8388608.size a
  hwx0_1 : ∀ i : grid0.Coords, EltTy.bits .f32 = 32 ∨ (Rect.block (s := S8388608) S262144.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S262144.size a ≤ S8388608.size a
  hwx0_2 : ∀ i : grid0.Coords, EltTy.bits .f32 = 32 ∨ (Rect.block (s := S8388608) S262144.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S262144.size a ≤ S8388608.size a
  hwx0_3 : ∀ i : grid0.Coords, EltTy.bits .f32 = 32 ∨ (Rect.block (s := S8388608) S262144.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S262144x2.size a ≤ S8388608x2.size a
  hwx0_4 : ∀ i : grid0.Coords, EltTy.bits .f32 = 32 ∨ (Rect.block (s := S8388608x2) S262144x2.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2.size a ≤ S2.size a
  hwx0_5 : ∀ i : grid0.Coords, EltTy.bits .f32 = 32 ∨ (Rect.block (s := S2) S2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S262144x4.size a ≤ S8388608x4.size a
  hwx0_6 : ∀ i : grid0.Coords, EltTy.bits .f32 = 32 ∨ (Rect.block (s := S8388608x4) S262144x4.size (cc0_transform_6 i) (hinb0_6 i)).WholeWords (EltTy.packing .f32)

variable [Facts₀]

abbrev win0_0 : Pipeline.Window sig grid0 :=
  Pipeline.Window.ofSpec (Memref.whole main_arg0) S262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S262144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S262144.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S262144.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S262144x2.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S262144x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8388608 : Shape := ⟨1, ![8388608]⟩
abbrev S8388608x2 : Shape := ⟨2, ![8388608, 2]⟩
abbrev S2 : Shape := ⟨1, ![2]⟩
abbrev S_ : Shape := ⟨0, ![]⟩
abbrev S8388608x1 : Shape := ⟨2, ![8388608, 1]⟩
abbrev S1x2 : Shape := ⟨2, ![1, 2]⟩
abbrev S8388608x4 : Shape := ⟨2, ![8388608, 4]⟩

abbrev nBuf : Space → Nat
  | .hbm => 82
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S8388608, .f32⟩
  | .hbm, ⟨2, _⟩ => ⟨S8388608, .f32⟩
  | .hbm, ⟨3, _⟩ => ⟨S8388608, .f32⟩
  | .hbm, ⟨4, _⟩ => ⟨S8388608x2, .f32⟩
  | .hbm, ⟨5, _⟩ => ⟨S2, .f32⟩
  | .hbm, ⟨6, _⟩ => ⟨S_, .f32⟩
  | .hbm, ⟨7, _⟩ => ⟨S8388608, .f32⟩
  | .hbm, ⟨8, _⟩ => ⟨S8388608, .f32⟩
  | .hbm, ⟨9, _⟩ => ⟨S_, .f32⟩
  | .hbm, ⟨10, _⟩ => ⟨S8388608, .f32⟩
  | .hbm, ⟨11, _⟩ => ⟨S8388608, .f32⟩
  | .hbm, ⟨12, _⟩ => ⟨S8388608, .f32⟩
  | .hbm, ⟨13, _⟩ => ⟨S8388608, .f32⟩
  | .hbm, ⟨14, _⟩ => ⟨S_, .f32⟩
  | .hbm, ⟨15, _⟩ => ⟨S8388608, .f32⟩
  | .hbm, ⟨16, _⟩ => ⟨S8388608, .f32⟩
  | .hbm, ⟨17, _⟩ => ⟨S8388608, .f32⟩
  | .hbm, ⟨18, _⟩ => ⟨S_, .f32⟩
  | .hbm, ⟨19, _⟩ => ⟨S8388608, .f32⟩
  | .hbm, ⟨20, _⟩ => ⟨S8388608, .f32⟩
  | .hbm, ⟨21, _⟩ => ⟨S8388608, .f32⟩
  | .hbm, ⟨22, _⟩ => ⟨S_, .f32⟩
  | .hbm, ⟨23, _⟩ => ⟨S8388608, .f32⟩
  | .hbm, ⟨24, _⟩ => ⟨S8388608, .f32⟩
  | .hbm, ⟨25, _⟩ => ⟨S_, .f32⟩
  | .hbm, ⟨26, _⟩ => ⟨S8388608, .f32⟩
  | .hbm, ⟨27, _⟩ => ⟨S8388608, .f32⟩
  | .hbm, ⟨28, _⟩ => ⟨S_, .f32⟩
  | .hbm, ⟨29, _⟩ => ⟨S8388608, .f32⟩
  | .hbm, ⟨30, _⟩ => ⟨S8388608, .f32⟩
  | .hbm, ⟨31, _⟩ => ⟨S_, .f32⟩
  | .hbm, ⟨32, _⟩ => ⟨S8388608, .f32⟩
  | .hbm, ⟨33, _⟩ => ⟨S8388608, .f32⟩
  | .hbm, ⟨34, _⟩ => ⟨S8388608, .f32⟩
  | .hbm, ⟨35, _⟩ => ⟨S8388608, .f32⟩
  | .hbm, ⟨36, _⟩ => ⟨S8388608x1, .f32⟩
  | .hbm, ⟨37, _⟩ => ⟨S8388608x1, .f32⟩
  | .hbm, ⟨38, _⟩ => ⟨S8388608x2, .f32⟩
  | .hbm, ⟨39, _⟩ => ⟨S1x2, .f32⟩
  | .hbm, ⟨40, _⟩ => ⟨S8388608x2, .f32⟩
  | .hbm, ⟨41, _⟩ => ⟨S8388608x2, .f32⟩
  | .hbm, ⟨42, _⟩ => ⟨S8388608x2, .f32⟩
  | .hbm, ⟨43, _⟩ => ⟨S_, .f32⟩
  | .hbm, ⟨44, _⟩ => ⟨S8388608, .f32⟩
  | .hbm, ⟨45, _⟩ => ⟨S_, .f32⟩
  | .hbm, ⟨46, _⟩ => ⟨S8388608, .f32⟩
  | .hbm, ⟨47, _⟩ => ⟨S8388608, .f32⟩
  | .hbm, ⟨48, _⟩ => ⟨S_, .f32⟩
  | .hbm, ⟨49, _⟩ => ⟨S8388608, .f32⟩
  | .hbm, ⟨50, _⟩ => ⟨S8388608, .f32⟩
  | .hbm, ⟨51, _⟩ => ⟨S8388608, .f32⟩
  | .hbm, ⟨52, _⟩ => ⟨S_, .f32⟩
  | .hbm, ⟨53, _⟩ => ⟨S8388608, .f32⟩
  | .hbm, ⟨54, _⟩ => ⟨S8388608, .f32⟩
  | .hbm, ⟨55, _⟩ => ⟨S8388608, .f32⟩
  | .hbm, ⟨56, _⟩ => ⟨S8388608, .f32⟩
  | .hbm, ⟨57, _⟩ => ⟨S8388608, .f32⟩
  | .hbm, ⟨58, _⟩ => ⟨S_, .f32⟩
  | .hbm, ⟨59, _⟩ => ⟨S8388608, .f32⟩
  | .hbm, ⟨60, _⟩ => ⟨S8388608, .f32⟩
  | .hbm, ⟨61, _⟩ => ⟨S_, .f32⟩
  | .hbm, ⟨62, _⟩ => ⟨S8388608, .f32⟩
  | .hbm, ⟨63, _⟩ => ⟨S8388608, .f32⟩
  | .hbm, ⟨64, _⟩ => ⟨S_, .f32⟩
  | .hbm, ⟨65, _⟩ => ⟨S8388608, .f32⟩
  | .hbm, ⟨66, _⟩ => ⟨S8388608, .f32⟩
  | .hbm, ⟨67, _⟩ => ⟨S8388608, .f32⟩
  | .hbm, ⟨68, _⟩ => ⟨S_, .f32⟩
  | .hbm, ⟨69, _⟩ => ⟨S8388608, .f32⟩
  | .hbm, ⟨70, _⟩ => ⟨S8388608, .f32⟩
  | .hbm, ⟨71, _⟩ => ⟨S8388608, .f32⟩
  | .hbm, ⟨72, _⟩ => ⟨S_, .f32⟩
  | .hbm, ⟨73, _⟩ => ⟨S8388608, .f32⟩
  | .hbm, ⟨74, _⟩ => ⟨S8388608, .f32⟩
  | .hbm, ⟨75, _⟩ => ⟨S8388608, .f32⟩
  | .hbm, ⟨76, _⟩ => ⟨S8388608, .f32⟩
  | .hbm, ⟨77, _⟩ => ⟨S8388608x1, .f32⟩
  | .hbm, ⟨78, _⟩ => ⟨S8388608x1, .f32⟩
  | .hbm, ⟨79, _⟩ => ⟨S8388608x1, .f32⟩
  | .hbm, ⟨80, _⟩ => ⟨S8388608x1, .f32⟩
  | .hbm, ⟨81, _⟩ => ⟨S8388608x4, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_11 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_15 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]

class Facts₀ : Prop where
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x2_d1 : Shape.Concatenates [S8388608x1, S8388608x1] S8388608x2 1
  bcast_S2_S1x2_1 : S2.BroadcastsInDim S1x2 (![1] : Fin 1 → Fin S1x2.rank)
  bcast_S1x2_S8388608x2_0_1 : S1x2.BroadcastsInDim S8388608x2 (![0, 1] : Fin 2 → Fin S8388608x2.rank)
  reducesTo_S8388608x2_S8388608_d1 : S8388608x2.ReducesTo [1] S8388608
  h_S_ : 0 < S_.numel
  concatenates_S8388608x1_S8388608x1_S8388608x1_S8388608x1_S8388608x4_d1 : Shape.Concatenates [S8388608x1, S8388608x1, S8388608x1, S8388608x1] S8388608x4 1

variable [Facts₀]

class Facts : Prop extends Facts₀ where

variable [Facts]
-- ==== Proof.HillRhs.lean ====
/-
  The right-hand side of a batch of independent two-gene circuits, as ONE function of the argument arrays.

  System b of the batch has states x, y, tracking errors e_x, e_y, two control weights w0, w1 and a shared target
  (t0, t1). With the states scaled down by ten, s(v) = (v/10)^2, the Hill constant K = 1/4, an activating term
  act(s) = s / (K + s) and a repressing term rep(s) = K / (K + s), the control input is
      u = w0 * ((x + e_x) - t0) + w1 * ((y + e_y) - t1)
  and the four outputs of the system are
      dx = 10 * (((1 * act(s x) + 0.2 * rep(s y)) - 1.1 * (x/10)) + u * act(s x))
      dy = 10 * ((1 * act(s y) + 0.2 * rep(s x)) - 1.1 * (y/10))
  followed by -dx and -dy. Everything is read over the extended reals; the float literals 1/4, 1, 0.2, 1.1 and 10 are
  kept as their binary words (both programs carry the same words, so they are never evaluated), except the one
  place where the two programs differ: one divides a state by the word for ten, the other multiplies it by the
  exact tenth. The two agree on every extended real (div_ten). Two more laws of the extended reals join the programs'
  spellings: 0 + a = a (a sum over the two control terms that starts from zero) and 0 - a = -a (a negation written
  as a subtraction from zero). None of the three needs a finite argument.
-/
import Idealize.ShloMosaic.PureOps.Ideal
import Idealize.ShloMosaic.PureOps.Ideal.Laws
import Idealize.ShloMosaic.Lib.ValueIdx

noncomputable section

namespace Cert.HillRhs

open Idealize.ShloMosaic Idealize.ShloMosaic.ValueIdx

/-! ## The one literal that is evaluated -/

/-- The word 0x41200000 is the real number ten. -/
theorem ofBits_ten : Ideal.ofBits .f32 0x41200000#32 = ((10 : ℝ) : EReal) := by
  simp [Ideal.ofBits, Ideal.ieee, -EReal.coe_mul]; norm_num

/-- Dividing by ten is multiplying by a tenth, on every extended real (at an infinity both sides are that
    infinity; no finiteness is used). -/
theorem div_ten (v : EReal) :
    Ideal.div v (Ideal.ofBits .f32 0x41200000#32) = v * ((1 / 10 : ℝ) : EReal) := by
  rw [ofBits_ten]; exact Ideal.div_coe (by norm_num) v

/-! ## One system -/

/-- The exact tenth the states are scaled by. -/
abbrev tenth : EReal := ((1 / 10 : ℝ) : EReal)
/-- The Hill constant K = (1/2)^2, as its word. -/
abbrev hillK : EReal := Ideal.ofBits .f32 0x3E800000#32
/-- The production rate 1.0, as its word. -/
abbrev rateOne : EReal := Ideal.ofBits .f32 0x3F800000#32
/-- The basal rate 0.2, as its word. -/
abbrev rateBasal : EReal := Ideal.ofBits .f32 0x3E4CCCCD#32
/-- The degradation rate 1.1, as its word. -/
abbrev rateDeg : EReal := Ideal.ofBits .f32 0x3F8CCCCD#32
/-- The scale 10 the derivative is multiplied back by, as its word. -/
abbrev scaleTen : EReal := Ideal.ofBits .f32 0x41200000#32

/-- A state scaled down by ten. -/
def scaled (v : EReal) : EReal := v * tenth
/-- The square of the scaled state: the argument of both Hill terms. -/
def scaledSq (v : EReal) : EReal := scaled v * scaled v
/-- The activating Hill term s / (K + s). -/
def activ (s : EReal) : EReal := Ideal.div s (hillK + s)
/-- The repressing Hill term K / (K + s). -/
def repr (s : EReal) : EReal := Ideal.div hillK (hillK + s)
/-- The control input: the two weights against the two tracking errors. -/
def control (x y ex ey w0 w1 t0 t1 : EReal) : EReal := w0 * ((x + ex) - t0) + w1 * ((y + ey) - t1)
/-- The derivative of the first state, with the control term. -/
def dxOf (x y ex ey w0 w1 t0 t1 : EReal) : EReal :=
  scaleTen * (((rateOne * activ (scaledSq x) + rateBasal * repr (scaledSq y)) - rateDeg * scaled x)
    + control x y ex ey w0 w1 t0 t1 * activ (scaledSq x))
/-- The derivative of the second state. -/
def dyOf (x y : EReal) : EReal :=
  scaleTen * ((rateOne * activ (scaledSq y) + rateBasal * repr (scaledSq x)) - rateDeg * scaled y)
/-- The four outputs of a system: dx, dy, -dx, -dy. -/
def column (k : Fin 4) (x y ex ey w0 w1 t0 t1 : EReal) : EReal :=
  match k with
  | ⟨0, _⟩ => dxOf x y ex ey w0 w1 t0 t1
  | ⟨1, _⟩ => dyOf x y
  | ⟨2, _⟩ => -dxOf x y ex ey w0 w1 t0 t1
  | ⟨3, _⟩ => -dyOf x y

/-! ## The batch -/

/-- Output k of system p from the argument arrays: the states and errors at p, the weights at (p, 0) and (p, 1),
    the shared target at 0 and 1. -/
def rhsAt (x y ex ey : FVec Ideal ⟨1, ![8388608]⟩ .f32) (w : FVec Ideal ⟨2, ![8388608, 2]⟩ .f32)
    (t : FVec Ideal ⟨1, ![2]⟩ .f32) (p : Fin 8388608) (k : Fin 4) : EReal :=
  column k (x (ix1 p)) (y (ix1 p)) (ex (ix1 p)) (ey (ix1 p)) (w (ix2 p (0 : Fin 2))) (w (ix2 p (1 : Fin 2)))
    (t (ix1 (0 : Fin 2))) (t (ix1 (1 : Fin 2)))

/-- The whole result array, entry (p, k) = output k of system p. -/
def rhs (x y ex ey : FVec Ideal ⟨1, ![8388608]⟩ .f32) (w : FVec Ideal ⟨2, ![8388608, 2]⟩ .f32)
    (t : FVec Ideal ⟨1, ![2]⟩ .f32) : FVec Ideal ⟨2, ![8388608, 4]⟩ .f32 :=
  fun i => rhsAt x y ex ey w t (i 0) (i 1)

theorem rhs_apply (x y ex ey : FVec Ideal ⟨1, ![8388608]⟩ .f32) (w : FVec Ideal ⟨2, ![8388608, 2]⟩ .f32)
    (t : FVec Ideal ⟨1, ![2]⟩ .f32) (p : Fin 8388608) (k : Fin 4) :
    rhs x y ex ey w t (ix2 p k) = rhsAt x y ex ey w t p k := rfl

end Cert.HillRhs

end
-- ==== Proof.LibColumnStack.lean ====
/-
  Vectors stacked on a new last axis, read at an entry.

  jnp.stack([v0, …, v(K-1)], axis=-1) of K vectors of length n lowers to K columns of shape [n, 1] (each vector
  given a trailing unit axis) concatenated along axis 1 into an [n, K] array. Entry (p, k) of that array is column k
  at (p, 0): along the joined axis every column has extent one, so the columns before column k take up exactly k
  positions. Stated for two and for four columns, for any length n and any element type.
-/
import Idealize.ShloMosaic.Lib.Pipeline.Value
import Idealize.ShloMosaic.Lib.ValueIdx

noncomputable section

namespace Cert.ColumnStack

open Idealize.ShloMosaic Idealize.ShloMosaic.ValueIdx

variable {α : Type} {n : Nat}

/-- Off the joined axis (axis 1 of a rank-2 array) a column's index and the array's index share coordinate 0. -/
private theorem off_axis (p : Fin n) {K : Nat} (k : Fin K) (hr : (⟨2, ![n, 1]⟩ : Shape).rank = (⟨2, ![n, K]⟩ : Shape).rank) :
    ∀ b : Fin (⟨2, ![n, 1]⟩ : Shape).rank, b.cast hr ≠ (1 : Fin (⟨2, ![n, K]⟩ : Shape).rank) →
      ((ix2 p (0 : Fin 1)) b).val = ((ix2 p k) (b.cast hr)).val := fun b =>
  match b with
  | ⟨0, _⟩ => fun _ => rfl
  | ⟨1, _⟩ => fun h => absurd rfl h

/-- Two columns side by side: entry (p, 0) is the first column at (p, 0). -/
theorem pair_fst (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (0 : Fin 2)) = a (ix2 p (0 : Fin 1)) :=
  concatenate_apply_piece 1 [⟨⟨2, ![n, 1]⟩, a⟩, ⟨⟨2, ![n, 1]⟩, b⟩] h (ix2 p (0 : Fin 2)) 0 (by simp) ⟨2, ![n, 1]⟩ a rfl rfl 0 rfl
    (ix2 p (0 : Fin 1)) (off_axis p (0 : Fin 2) rfl) rfl

/-- Two columns side by side: entry (p, 1) is the second column at (p, 0). -/
theorem pair_snd (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (1 : Fin 2)) = b (ix2 p (0 : Fin 1)) :=
  concatenate_apply_piece 1 [⟨⟨2, ![n, 1]⟩, a⟩, ⟨⟨2, ![n, 1]⟩, b⟩] h (ix2 p (1 : Fin 2)) 1 (by simp) ⟨2, ![n, 1]⟩ b rfl rfl 1 rfl
    (ix2 p (0 : Fin 1)) (off_axis p (1 : Fin 2) rfl) rfl

/-- Four columns side by side: entry (p, 0) is the first column at (p, 0). -/
theorem quad_0 (a b c d : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (p : Fin n) :
    concatenate ⟨2, ![n, 4]⟩ 1 [⟨⟨2, ![n, 1]⟩, a⟩, ⟨⟨2, ![n, 1]⟩, b⟩, ⟨⟨2, ![n, 1]⟩, c⟩, ⟨⟨2, ![n, 1]⟩, d⟩] h (ix2 p (0 : Fin 4))
      = a (ix2 p (0 : Fin 1)) :=
  concatenate_apply_piece 1 [⟨⟨2, ![n, 1]⟩, a⟩, ⟨⟨2, ![n, 1]⟩, b⟩, ⟨⟨2, ![n, 1]⟩, c⟩, ⟨⟨2, ![n, 1]⟩, d⟩] h (ix2 p (0 : Fin 4)) 0 (by simp) ⟨2, ![n, 1]⟩ a rfl rfl 0 rfl
    (ix2 p (0 : Fin 1)) (off_axis p (0 : Fin 4) rfl) rfl

/-- Four columns side by side: entry (p, 1) is the second column at (p, 0). -/
theorem quad_1 (a b c d : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (p : Fin n) :
    concatenate ⟨2, ![n, 4]⟩ 1 [⟨⟨2, ![n, 1]⟩, a⟩, ⟨⟨2, ![n, 1]⟩, b⟩, ⟨⟨2, ![n, 1]⟩, c⟩, ⟨⟨2, ![n, 1]⟩, d⟩] h (ix2 p (1 : Fin 4))
      = b (ix2 p (0 : Fin 1)) :=
  concatenate_apply_piece 1 [⟨⟨2, ![n, 1]⟩, a⟩, ⟨⟨2, ![n, 1]⟩, b⟩, ⟨⟨2, ![n, 1]⟩, c⟩, ⟨⟨2, ![n, 1]⟩, d⟩] h (ix2 p (1 : Fin 4)) 1 (by simp) ⟨2, ![n, 1]⟩ b rfl rfl 1 rfl
    (ix2 p (0 : Fin 1)) (off_axis p (1 : Fin 4) rfl) rfl

/-- Four columns side by side: entry (p, 2) is the third column at (p, 0). -/
theorem quad_2 (a b c d : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (p : Fin n) :
    concatenate ⟨2, ![n, 4]⟩ 1 [⟨⟨2, ![n, 1]⟩, a⟩, ⟨⟨2, ![n, 1]⟩, b⟩, ⟨⟨2, ![n, 1]⟩, c⟩, ⟨⟨2, ![n, 1]⟩, d⟩] h (ix2 p (2 : Fin 4))
      = c (ix2 p (0 : Fin 1)) :=
  concatenate_apply_piece 1 [⟨⟨2, ![n, 1]⟩, a⟩, ⟨⟨2, ![n, 1]⟩, b⟩, ⟨⟨2, ![n, 1]⟩, c⟩, ⟨⟨2, ![n, 1]⟩, d⟩] h (ix2 p (2 : Fin 4)) 2 (by simp) ⟨2, ![n, 1]⟩ c rfl rfl 2 rfl
    (ix2 p (0 : Fin 1)) (off_axis p (2 : Fin 4) rfl) rfl

/-- Four columns side by side: entry (p, 3) is the fourth column at (p, 0). -/
theorem quad_3 (a b c d : (⟨2, ![n, 1]⟩ : Shape).Idx → α)
    (h : Shape.Concatenates [(⟨2, ![n, 1]⟩ : Shape), ⟨2, ![n, 1]⟩, ⟨2, ![n, 1]⟩, ⟨2, ![n, 1]⟩] ⟨2, ![n, 4]⟩ 1) (p : Fin n) :
    concatenate ⟨2, ![n, 4]⟩ 1 [⟨⟨2, ![n, 1]⟩, a⟩, ⟨⟨2, ![n, 1]⟩, b⟩, ⟨⟨2, ![n, 1]⟩, c⟩, ⟨⟨2, ![n, 1]⟩, d⟩] h (ix2 p (3 : Fin 4))
      = d (ix2 p (0 : Fin 1)) :=
  concatenate_apply_piece 1 [⟨⟨2, ![n, 1]⟩, a⟩, ⟨⟨2, ![n, 1]⟩, b⟩, ⟨⟨2, ![n, 1]⟩, c⟩, ⟨⟨2, ![n, 1]⟩, d⟩] h (ix2 p (3 : Fin 4)) 3 (by simp) ⟨2, ![n, 1]⟩ d rfl rfl 3 rfl
    (ix2 p (0 : Fin 1)) (off_axis p (3 : Fin 4) rfl) rfl

end Cert.ColumnStack

end
-- ==== Proof.ReferenceValue.lean ====
/-
  The reference program's result, read entry by entry: it is the batch right-hand side `Cert.HillRhs.rhs` of its six
  argument arrays.

  The reference computes, per system, the scaled states x/10 and y/10 (a quotient by the word for ten, which is the
  product with the exact tenth on every extended real), their squares, the four Hill terms, the control input as a
  sum over a two-entry axis of W_a * (stack([x + e_x, y + e_y]) - target) started from zero (so 0 + (term 0 + term 1)),
  the two derivatives, their negations, and stacks the four vectors on a new last axis. Each stage is read at an
  index below and named by the scalar function of the specification it computes.
-/
import proofs.«181317_j45638322487767_1_alg».proof.Proof.Gen.ReferenceIdeal.Read
import proofs.«181317_j45638322487767_1_alg».proof.Proof.HillRhs
import proofs.«181317_j45638322487767_1_alg».proof.Proof.LibColumnStack
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.HillRhs

variable (x0 x1 x2 x3 : (⟨S8388608, .f32⟩ : BufTy).Contents (Elt Ideal))
variable (x4 : (⟨S8388608x2, .f32⟩ : BufTy).Contents (Elt Ideal)) (x5 : (⟨S2, .f32⟩ : BufTy).Contents (Elt Ideal))

/-! ## The scaled states and the Hill terms (pointwise in the system) -/

/-- x / 10 is the scaled first state. -/
theorem scaled_x (i : S8388608.Idx) : val_main_v1 (F := Ideal) x0 i = scaled (x0 i) := by
  rw [val_main_v1_apply, val_main_v0_apply, val_main_cst_apply]
  exact div_ten (x0 i)

/-- y / 10 is the scaled second state. -/
theorem scaled_y (i : S8388608.Idx) : val_main_v3 (F := Ideal) x1 i = scaled (x1 i) := by
  rw [val_main_v3_apply, val_main_v2_apply, val_main_cst_0_apply]
  exact div_ten (x1 i)

theorem sq_x (i : S8388608.Idx) : val_main_v4 (F := Ideal) x0 i = scaledSq (x0 i) := by
  rw [val_main_v4_apply, scaled_x]; rfl

theorem sq_y (i : S8388608.Idx) : val_main_v5 (F := Ideal) x1 i = scaledSq (x1 i) := by
  rw [val_main_v5_apply, scaled_y]; rfl

/-- The activating term in x. -/
theorem act_x (i : S8388608.Idx) : val_main_v8 (F := Ideal) x0 i = activ (scaledSq (x0 i)) := by
  rw [val_main_v8_apply, val_main_v7_apply, val_main_v6_apply, val_main_cst_1_apply, sq_x]; rfl

/-- The activating term in y. -/
theorem act_y (i : S8388608.Idx) : val_main_v11 (F := Ideal) x1 i = activ (scaledSq (x1 i)) := by
  rw [val_main_v11_apply, val_main_v10_apply, val_main_v9_apply, val_main_cst_2_apply, sq_y]; rfl

/-- The repressing term of y on x. -/
theorem rep_y (i : S8388608.Idx) : val_main_v15 (F := Ideal) x1 i = repr (scaledSq (x1 i)) := by
  rw [val_main_v15_apply, val_main_v14_apply, val_main_cst_4_apply, val_main_v13_apply, val_main_v12_apply,
    val_main_cst_3_apply, sq_y]; rfl

/-- The repressing term of x on y. -/
theorem rep_x (i : S8388608.Idx) : val_main_v19 (F := Ideal) x0 i = repr (scaledSq (x0 i)) := by
  rw [val_main_v19_apply, val_main_v18_apply, val_main_cst_6_apply, val_main_v17_apply, val_main_v16_apply,
    val_main_cst_5_apply, sq_x]; rfl

/-! ## Indices: the generated index maps at coordinates -/

theorem idx_v22 (p : Fin 8388608) (u : Fin 1) : idx_main_v22 (ix2 p u) = ix1 p :=
  funext fun a => match a with | ⟨0, _⟩ => rfl
theorem idx_v23 (p : Fin 8388608) (u : Fin 1) : idx_main_v23 (ix2 p u) = ix1 p :=
  funext fun a => match a with | ⟨0, _⟩ => rfl
theorem idx_v54 (p : Fin 8388608) (u : Fin 1) : idx_main_v54 (ix2 p u) = ix1 p :=
  funext fun a => match a with | ⟨0, _⟩ => rfl
theorem idx_v55 (p : Fin 8388608) (u : Fin 1) : idx_main_v55 (ix2 p u) = ix1 p :=
  funext fun a => match a with | ⟨0, _⟩ => rfl
theorem idx_v56 (p : Fin 8388608) (u : Fin 1) : idx_main_v56 (ix2 p u) = ix1 p :=
  funext fun a => match a with | ⟨0, _⟩ => rfl
theorem idx_v57 (p : Fin 8388608) (u : Fin 1) : idx_main_v57 (ix2 p u) = ix1 p :=
  funext fun a => match a with | ⟨0, _⟩ => rfl
/-- The target, broadcast along the systems, is read at its own entry. -/
theorem idx_target (p : Fin 8388608) (k : Fin 2) : idx_main_v25 (idx_main_v26 (ix2 p k)) = ix1 k :=
  funext fun a => match a with | ⟨0, _⟩ => rfl
/-- The summed axis of the control terms: term k of system p. -/
theorem idx_term (p : Fin 8388608) (k : Fin 2) : idx_main_v29 (ix1 p) k = ix2 p k :=
  funext fun a => match a with | ⟨0, _⟩ => rfl | ⟨1, _⟩ => rfl

/-! ## The control input -/

/-- Entry (p, 0) of stack([x + e_x, y + e_y]) is x + e_x at p. -/
theorem stacked_0 (p : Fin 8388608) :
    val_main_v24 (F := Ideal) x0 x1 x2 x3 (ix2 p (0 : Fin 2)) = x0 (ix1 p) + x2 (ix1 p) := by
  unfold val_main_v24
  refine (Cert.ColumnStack.pair_fst _ _ _ p).trans ?_
  rw [val_main_v22_apply, idx_v22, val_main_v20_apply]; rfl

/-- Entry (p, 1) of stack([x + e_x, y + e_y]) is y + e_y at p. -/
theorem stacked_1 (p : Fin 8388608) :
    val_main_v24 (F := Ideal) x0 x1 x2 x3 (ix2 p (1 : Fin 2)) = x1 (ix1 p) + x3 (ix1 p) := by
  unfold val_main_v24
  refine (Cert.ColumnStack.pair_snd _ _ _ p).trans ?_
  rw [val_main_v23_apply, idx_v23, val_main_v21_apply]; rfl

/-- The broadcast target at (p, k) is target entry k. -/
theorem target_at (p : Fin 8388608) (k : Fin 2) : val_main_v26 (F := Ideal) x5 (ix2 p k) = x5 (ix1 k) := by
  rw [val_main_v26_apply, val_main_v25_apply, idx_target]

/-- Term k of the control sum. -/
theorem term_at (p : Fin 8388608) (k : Fin 2) :
    val_main_v28 (F := Ideal) x0 x1 x2 x3 x4 x5 (ix2 p k)
      = x4 (ix2 p k) * (val_main_v24 (F := Ideal) x0 x1 x2 x3 (ix2 p k) - x5 (ix1 k)) := by
  rw [val_main_v28_apply, val_main_v27_apply, target_at]; rfl

/-- The sum over the two terms, started from zero, is the control input: 0 + (a0 + a1) = a0 + a1. -/
theorem control_eq (p : Fin 8388608) :
    val_main_v29 (F := Ideal) x0 x1 x2 x3 x4 x5 (ix1 p)
      = control (x0 (ix1 p)) (x1 (ix1 p)) (x2 (ix1 p)) (x3 (ix1 p)) (x4 (ix2 p (0 : Fin 2))) (x4 (ix2 p (1 : Fin 2)))
          (x5 (ix1 (0 : Fin 2))) (x5 (ix1 (1 : Fin 2))) := by
  rw [val_main_v29_apply, Fin.sum_univ_two, val_main_cst_7_apply, idx_term, idx_term, term_at, term_at,
    stacked_0, stacked_1]
  show Ideal.ofBits .f32 0x00000000#32 + _ = _
  rw [Ideal.ofBits_zero_f32, zero_add]; rfl

/-! ## The two derivatives -/

theorem dx_eq (p : Fin 8388608) :
    val_main_v41 (F := Ideal) x0 x1 x2 x3 x4 x5 (ix1 p)
      = dxOf (x0 (ix1 p)) (x1 (ix1 p)) (x2 (ix1 p)) (x3 (ix1 p)) (x4 (ix2 p (0 : Fin 2))) (x4 (ix2 p (1 : Fin 2)))
          (x5 (ix1 (0 : Fin 2))) (x5 (ix1 (1 : Fin 2))) := by
  rw [val_main_v41_apply, val_main_v40_apply, val_main_cst_11_apply, val_main_v39_apply, val_main_v37_apply,
    val_main_v34_apply, val_main_v31_apply, val_main_v30_apply, val_main_cst_8_apply, val_main_v33_apply,
    val_main_v32_apply, val_main_cst_9_apply, val_main_v36_apply, val_main_v35_apply, val_main_cst_10_apply,
    val_main_v38_apply, control_eq, act_x, rep_y, scaled_x]
  rfl

theorem dy_eq (i : S8388608.Idx) : val_main_v51 (F := Ideal) x0 x1 i = dyOf (x0 i) (x1 i) := by
  rw [val_main_v51_apply, val_main_v50_apply, val_main_cst_15_apply, val_main_v49_apply, val_main_v46_apply,
    val_main_v43_apply, val_main_v42_apply, val_main_cst_12_apply, val_main_v45_apply, val_main_v44_apply,
    val_main_cst_13_apply, val_main_v48_apply, val_main_v47_apply, val_main_cst_14_apply, act_y, rep_x, scaled_y]
  rfl

/-! ## The result -/

/-- The reference's result array is the batch right-hand side of its arguments: column k of the stack of
    [dx, dy, -dx, -dy] at system p. -/
theorem result_eq : val_main_v58 (F := Ideal) x0 x1 x2 x3 x4 x5 = rhs x0 x1 x2 x3 x4 x5 := by
  funext i
  obtain ⟨p, k, rfl⟩ : ∃ (p : Fin 8388608) (k : Fin 4), i = ix2 p k := ⟨i 0, i 1, eq_ix2 i⟩
  rw [rhs_apply]
  unfold val_main_v58
  match k with
  | ⟨0, _⟩ =>
    refine (Cert.ColumnStack.quad_0 _ _ _ _ _ p).trans ?_
    rw [val_main_v54_apply, idx_v54, dx_eq]; rfl
  | ⟨1, _⟩ =>
    refine (Cert.ColumnStack.quad_1 _ _ _ _ _ p).trans ?_
    rw [val_main_v55_apply, idx_v55, dy_eq]; rfl
  | ⟨2, _⟩ =>
    refine (Cert.ColumnStack.quad_2 _ _ _ _ _ p).trans ?_
    rw [val_main_v56_apply, idx_v56, val_main_v52_apply, dx_eq]; rfl
  | ⟨3, _⟩ =>
    refine (Cert.ColumnStack.quad_3 _ _ _ _ _ p).trans ?_
    rw [val_main_v57_apply, idx_v57, val_main_v53_apply, dy_eq]; rfl

end Cert.ReferenceIdeal.RefValue

end
-- ==== Proof.KernelBlock.lean ====
/-
  What the kernel body leaves in one output block, as ONE function of its six input blocks.

  At a grid point the body loads a block of 262144 systems: the states x, y and the errors e_x, e_y whole, the
  weights as two columns of a [262144, 2] block, the target's two entries; it computes the scaled states x * (1/10)
  and y * (1/10) (the tenth is the named constant, the exact rational), the Hill terms, the control input
  w0 * ((x + e_x) - t0) + w1 * ((y + e_y) - t1), the derivatives dx and dy, and stores four columns of the
  [262144, 4] output block: dx, dy, 0 - dx and 0 - dy, each vector given a trailing unit axis. On the extended
  reals 0 - a = -a, so the block is the batch right-hand side of the block's own systems: row r, column k is
  output k of system r (`blockRhs`). The four stores tile the block, so its contents after the body are read
  off the stores piece by piece.
-/
import proofs.«181317_j45638322487767_1_alg».proof.Proof.Gen.KernelIdeal.Value
import proofs.«181317_j45638322487767_1_alg».proof.Proof.HillRhs
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.BlockValue

open Cert.KernelIdeal Cert.KernelIdeal.Gen Idealize.ShloMosaic Idealize.ShloMosaic.TcCoe
open Idealize.ShloMosaic.ValueIdx Cert.HillRhs

/-! ## The block's specification -/

/-- Output k of the block's system r, from the six input blocks. -/
def blockAt (b0 b1 b2 b3 : Vec Ideal S262144 .f32) (b4 : Vec Ideal S262144x2 .f32) (b5 : Vec Ideal S2 .f32)
    (r : Fin 262144) (k : Fin 4) : EReal :=
  column k (b0 (ix1 r)) (b1 (ix1 r)) (b2 (ix1 r)) (b3 (ix1 r)) (b4 (ix2 r (0 : Fin 2))) (b4 (ix2 r (1 : Fin 2)))
    (b5 (ix1 (0 : Fin 2))) (b5 (ix1 (1 : Fin 2)))

/-- The output block: entry (r, k) is output k of the block's system r. -/
def blockRhs (b0 b1 b2 b3 : Vec Ideal S262144 .f32) (b4 : Vec Ideal S262144x2 .f32) (b5 : Vec Ideal S2 .f32) :
    Vec Ideal S262144x4 .f32 :=
  fun y => blockAt b0 b1 b2 b3 b4 b5 (y 0) (y 1)

theorem blockRhs_apply (b0 b1 b2 b3 : Vec Ideal S262144 .f32) (b4 : Vec Ideal S262144x2 .f32) (b5 : Vec Ideal S2 .f32)
    (r : Fin 262144) (k : Fin 4) : blockRhs b0 b1 b2 b3 b4 b5 (ix2 r k) = blockAt b0 b1 b2 b3 b4 b5 r k := rfl

/-! ## The named constant -/

/-- The kernel's named reciprocal is the exact tenth. -/
theorem named_tenth : Named.named (F := Ideal) κ "inv_10" (φ := .f32) 0x3DCCCCCD#32 = tenth :=
  IdealRules.named_const.ideal_named_scalar _ _ _ _ rfl

/-! ## Layout: a vector and its one-column form, the weight columns, the target's entries -/

/-- A one-column array read as a vector: entry r is the column's (r, 0). -/
theorem column_as_vector (v : Vec Ideal S262144x1 .f32) (h : S262144x1.ShapeCasts S262144) (r : Fin 262144) :
    shapeCast S262144 v h (ix1 r) = v (ix2 r (0 : Fin 1)) :=
  shapeCast_apply v h (ix1 r) (ix2 r (0 : Fin 1)) (by
    rw [Shape.rowMajor_val_two, Shape.rowMajor_val_one]; show r.val * 1 + 0 = r.val; omega)

/-- A vector given a trailing unit axis: entry (r, u) is the vector's r. -/
theorem vector_as_column (v : FVec Ideal S262144 .f32) (h : S262144.ShapeCasts S262144x1) (r : Fin 262144) (u : Fin 1) :
    shapeCast S262144x1 v h (ix2 r u) = v (ix1 r) :=
  shapeCast_apply v h (ix2 r u) (ix1 r) (by
    rw [Shape.rowMajor_val_two, Shape.rowMajor_val_one]; show r.val = r.val * 1 + u.val; have := u.isLt; omega)

/-- The load of the weights' first column reads the block at (r, 0). -/
theorem weight_col0 (b4 : Vec Ideal S262144x2 .f32) (r : Fin 262144) (u : Fin 1) :
    View.ld b4 r0_1 (ix2 r u) = b4 (ix2 r (0 : Fin 2)) :=
  congrArg b4 (funext fun a => Fin.ext (by
    match a with
    | ⟨0, _⟩ => show 0 + 1 * r.val = r.val; omega
    | ⟨1, _⟩ => show 0 + 1 * u.val = 0; have := u.isLt; omega))

/-- The load of the weights' second column reads the block at (r, 1). -/
theorem weight_col1 (b4 : Vec Ideal S262144x2 .f32) (r : Fin 262144) (u : Fin 1) :
    View.ld b4 r0_2 (ix2 r u) = b4 (ix2 r (1 : Fin 2)) :=
  congrArg b4 (funext fun a => Fin.ext (by
    match a with
    | ⟨0, _⟩ => show 0 + 1 * r.val = r.val; omega
    | ⟨1, _⟩ => show 1 + 1 * u.val = 1; have := u.isLt; omega))

/-- The first entry taken out of the two-entry target. -/
theorem target_0 (v8 : Vec Ideal S2 .f32) (h1 : S2.Slices ![0] S1) (h2 : ∀ a, (![0] : Fin 1 → Nat) a < S1.size a) :
    extractAt ![0] (extractStridedSlice S1 ![0] v8 h1) h2 = v8 (ix1 (0 : Fin 2)) :=
  congrArg v8 (funext fun a => Fin.ext (by match a with | ⟨0, _⟩ => rfl))

/-- The second entry taken out of the two-entry target. -/
theorem target_1 (v8 : Vec Ideal S2 .f32) (h1 : S2.Slices ![1] S1) (h2 : ∀ a, (![0] : Fin 1 → Nat) a < S1.size a) :
    extractAt ![0] (extractStridedSlice S1 ![1] v8 h1) h2 = v8 (ix1 (1 : Fin 2)) :=
  congrArg v8 (funext fun a => Fin.ext (by match a with | ⟨0, _⟩ => rfl))

/-! ## The body's arithmetic, read at a system -/

theorem scaled_x (v0 : Vec Ideal S262144 .f32) (j : S262144.Idx) : k0_pay1 (F := Ideal) v0 j = scaled (v0 j) := by
  unfold k0_pay1
  show v0 j * Named.named (F := Ideal) κ "inv_10" (φ := .f32) 0x3DCCCCCD#32 = _
  rw [named_tenth]; rfl

theorem scaled_y (v1 : Vec Ideal S262144 .f32) (j : S262144.Idx) : k0_pay2 (F := Ideal) v1 j = scaled (v1 j) := by
  unfold k0_pay2
  show v1 j * Named.named (F := Ideal) κ "inv_10" (φ := .f32) 0x3DCCCCCD#32 = _
  rw [named_tenth]; rfl

theorem sq_x (v0 : Vec Ideal S262144 .f32) (j : S262144.Idx) : k0_pay3 (F := Ideal) v0 j = scaledSq (v0 j) := by
  unfold k0_pay3
  show k0_pay1 (F := Ideal) v0 j * k0_pay1 (F := Ideal) v0 j = _
  rw [scaled_x]; rfl

theorem sq_y (v1 : Vec Ideal S262144 .f32) (j : S262144.Idx) : k0_pay4 (F := Ideal) v1 j = scaledSq (v1 j) := by
  unfold k0_pay4
  show k0_pay2 (F := Ideal) v1 j * k0_pay2 (F := Ideal) v1 j = _
  rw [scaled_y]; rfl

theorem act_x (v0 : Vec Ideal S262144 .f32) (j : S262144.Idx) : k0_pay5 (F := Ideal) v0 j = activ (scaledSq (v0 j)) := by
  unfold k0_pay5
  show Ideal.div (k0_pay3 (F := Ideal) v0 j) (Ideal.ofBits .f32 0x3E800000#32 + k0_pay3 (F := Ideal) v0 j) = _
  rw [sq_x]; rfl

theorem act_y (v1 : Vec Ideal S262144 .f32) (j : S262144.Idx) : k0_pay6 (F := Ideal) v1 j = activ (scaledSq (v1 j)) := by
  unfold k0_pay6
  show Ideal.div (k0_pay4 (F := Ideal) v1 j) (Ideal.ofBits .f32 0x3E800000#32 + k0_pay4 (F := Ideal) v1 j) = _
  rw [sq_y]; rfl

theorem rep_y (v1 : Vec Ideal S262144 .f32) (j : S262144.Idx) : k0_pay7 (F := Ideal) v1 j = repr (scaledSq (v1 j)) := by
  unfold k0_pay7
  show Ideal.div (Ideal.ofBits .f32 0x3E800000#32) (Ideal.ofBits .f32 0x3E800000#32 + k0_pay4 (F := Ideal) v1 j) = _
  rw [sq_y]; rfl

theorem rep_x (v0 : Vec Ideal S262144 .f32) (j : S262144.Idx) : k0_pay8 (F := Ideal) v0 j = repr (scaledSq (v0 j)) := by
  unfold k0_pay8
  show Ideal.div (Ideal.ofBits .f32 0x3E800000#32) (Ideal.ofBits .f32 0x3E800000#32 + k0_pay3 (F := Ideal) v0 j) = _
  rw [sq_x]; rfl

/-- The control input of system r from the loaded blocks and the two weight columns. -/
theorem control_eq (v0 v1 v2 v3 : Vec Ideal S262144 .f32) (v4 v6 : Vec Ideal S262144x1 .f32) (v8 : Vec Ideal S2 .f32)
    (r : Fin 262144) :
    k0_pay9 (F := Ideal) v0 v1 v2 v3 v4 v6 v8 (ix1 r)
      = control (v0 (ix1 r)) (v1 (ix1 r)) (v2 (ix1 r)) (v3 (ix1 r)) (v4 (ix2 r (0 : Fin 1))) (v6 (ix2 r (0 : Fin 1)))
          (v8 (ix1 (0 : Fin 2))) (v8 (ix1 (1 : Fin 2))) := by
  unfold k0_pay9
  show shapeCast S262144 v4 _ (ix1 r) * ((v0 (ix1 r) + v2 (ix1 r)) - extractAt ![0] (extractStridedSlice S1 ![0] v8 _) _)
      + shapeCast S262144 v6 _ (ix1 r) * ((v1 (ix1 r) + v3 (ix1 r)) - extractAt ![0] (extractStridedSlice S1 ![1] v8 _) _) = _
  rw [column_as_vector, column_as_vector, target_0, target_1]; rfl

/-- dx as the body computes it from its intermediate vectors. -/
theorem dx_form (v14 v21 v28 v41 : FVec Ideal S262144 .f32) (j : S262144.Idx) :
    k0_pay10 (F := Ideal) v14 v21 v28 v41 j
      = scaleTen * (((rateOne * v21 j + rateBasal * v28 j) - rateDeg * v14 j) + v41 j * v21 j) := rfl

/-- dy as the body computes it from its intermediate vectors. -/
theorem dy_form (v16 v24 v32 : FVec Ideal S262144 .f32) (j : S262144.Idx) :
    k0_pay11 (F := Ideal) v16 v24 v32 j = scaleTen * ((rateOne * v24 j + rateBasal * v32 j) - rateDeg * v16 j) := rfl

/-- dx of system r from the loaded blocks. -/
theorem dx_eq (v0 v1 v2 v3 : Vec Ideal S262144 .f32) (v4 v6 : Vec Ideal S262144x1 .f32) (v8 : Vec Ideal S2 .f32)
    (r : Fin 262144) :
    k0_pay10 (F := Ideal) (k0_pay1 v0) (k0_pay5 v0) (k0_pay7 v1) (k0_pay9 v0 v1 v2 v3 v4 v6 v8) (ix1 r)
      = dxOf (v0 (ix1 r)) (v1 (ix1 r)) (v2 (ix1 r)) (v3 (ix1 r)) (v4 (ix2 r (0 : Fin 1))) (v6 (ix2 r (0 : Fin 1)))
          (v8 (ix1 (0 : Fin 2))) (v8 (ix1 (1 : Fin 2))) := by
  rw [dx_form, scaled_x, act_x, rep_y, control_eq]; rfl

/-- dy of system r from the loaded blocks. -/
theorem dy_eq (v0 v1 : Vec Ideal S262144 .f32) (j : S262144.Idx) :
    k0_pay11 (F := Ideal) (k0_pay2 v1) (k0_pay6 v1) (k0_pay8 v0) j = dyOf (v0 j) (v1 j) := by
  rw [dy_form, scaled_y, act_y, rep_x]; rfl

/-! ## The four stored columns -/

theorem zero_offsets_1 : (![0] : Fin 1 → Nat) = fun _ => 0 := funext fun a => by fin_cases a <;> rfl

/-- A load of a whole vector block reads the block. -/
theorem whole_vector (b : Vec Ideal S262144 .f32) (j : S262144.Idx) : View.ld b r0_0 j = b j :=
  congrFun (View.ld_unit_zero (S := S262144) zero_offsets_1 _ b) j

/-- The load of the whole two-entry target reads it. -/
theorem whole_target (b : Vec Ideal S2 .f32) (j : S2.Idx) : View.ld b r0_3 j = b j :=
  congrFun (View.ld_unit_zero (S := S2) zero_offsets_1 _ b) j

/-- Column k's rectangle puts its entry (r, u) at (r, k) of the block. -/
theorem emb_col0 (r : Fin 262144) (u : Fin 1) : r0_4.emb (ix2 r u) = ix2 r (0 : Fin 4) :=
  funext fun a => Fin.ext (by
    match a with
    | ⟨0, _⟩ => show 0 + 1 * r.val = r.val; omega
    | ⟨1, _⟩ => show 0 + 1 * u.val = 0; have := u.isLt; omega)
theorem emb_col1 (r : Fin 262144) (u : Fin 1) : r0_5.emb (ix2 r u) = ix2 r (1 : Fin 4) :=
  funext fun a => Fin.ext (by
    match a with
    | ⟨0, _⟩ => show 0 + 1 * r.val = r.val; omega
    | ⟨1, _⟩ => show 1 + 1 * u.val = 1; have := u.isLt; omega)
theorem emb_col2 (r : Fin 262144) (u : Fin 1) : r0_6.emb (ix2 r u) = ix2 r (2 : Fin 4) :=
  funext fun a => Fin.ext (by
    match a with
    | ⟨0, _⟩ => show 0 + 1 * r.val = r.val; omega
    | ⟨1, _⟩ => show 2 + 1 * u.val = 2; have := u.isLt; omega)
theorem emb_col3 (r : Fin 262144) (u : Fin 1) : r0_7.emb (ix2 r u) = ix2 r (3 : Fin 4) :=
  funext fun a => Fin.ext (by
    match a with
    | ⟨0, _⟩ => show 0 + 1 * r.val = r.val; omega
    | ⟨1, _⟩ => show 3 + 1 * u.val = 3; have := u.isLt; omega)

section Pieces

variable (x0 x1 x2 x3 : Vec Ideal S262144 .f32) (x4 : Vec Ideal S262144x2 .f32) (x5 : Vec Ideal S2 .f32)

/-- dx of system r over the body's loads is dx of the blocks' entries. -/
theorem dx_loaded (r : Fin 262144) :
    k0_pay10 (F := Ideal) (k0_pay1 (View.ld x0 r0_0)) (k0_pay5 (View.ld x0 r0_0)) (k0_pay7 (View.ld x1 r0_0))
        (k0_pay9 (View.ld x0 r0_0) (View.ld x1 r0_0) (View.ld x2 r0_0) (View.ld x3 r0_0) (View.ld x4 r0_1) (View.ld x4 r0_2)
          (View.ld x5 r0_3)) (ix1 r)
      = dxOf (x0 (ix1 r)) (x1 (ix1 r)) (x2 (ix1 r)) (x3 (ix1 r)) (x4 (ix2 r (0 : Fin 2))) (x4 (ix2 r (1 : Fin 2)))
          (x5 (ix1 (0 : Fin 2))) (x5 (ix1 (1 : Fin 2))) := by
  rw [dx_eq, weight_col0, weight_col1, whole_vector, whole_vector, whole_vector, whole_vector, whole_target, whole_target]

/-- dy of system r over the body's loads is dy of the blocks' entries. -/
theorem dy_loaded (r : Fin 262144) :
    k0_pay11 (F := Ideal) (k0_pay2 (View.ld x1 r0_0)) (k0_pay6 (View.ld x1 r0_0)) (k0_pay8 (View.ld x0 r0_0)) (ix1 r)
      = dyOf (x0 (ix1 r)) (x1 (ix1 r)) := by
  rw [dy_eq, whole_vector, whole_vector]

/-- The first stored column is dx. -/
theorem col0_eq (r : Fin 262144) (u : Fin 1) :
    k0_pay12 (F := Ideal) (k0_pay1 (View.ld x0 r0_0)) (k0_pay5 (View.ld x0 r0_0)) (k0_pay7 (View.ld x1 r0_0))
        (k0_pay9 (View.ld x0 r0_0) (View.ld x1 r0_0) (View.ld x2 r0_0) (View.ld x3 r0_0) (View.ld x4 r0_1) (View.ld x4 r0_2)
          (View.ld x5 r0_3)) (ix2 r u)
      = blockAt x0 x1 x2 x3 x4 x5 r (0 : Fin 4) := by
  unfold k0_pay12
  show shapeCast S262144x1 (k0_pay10 (F := Ideal) _ _ _ _) _ (ix2 r u) = _
  rw [vector_as_column, dx_loaded]; rfl

/-- The second stored column is dy. -/
theorem col1_eq (r : Fin 262144) (u : Fin 1) :
    k0_pay13 (F := Ideal) (k0_pay2 (View.ld x1 r0_0)) (k0_pay6 (View.ld x1 r0_0)) (k0_pay8 (View.ld x0 r0_0)) (ix2 r u)
      = blockAt x0 x1 x2 x3 x4 x5 r (1 : Fin 4) := by
  unfold k0_pay13
  show shapeCast S262144x1 (k0_pay11 (F := Ideal) _ _ _) _ (ix2 r u) = _
  rw [vector_as_column, dy_loaded]; rfl

/-- The third stored column, 0 - dx, is -dx. -/
theorem col2_eq (r : Fin 262144) (u : Fin 1) :
    k0_pay14 (F := Ideal) (k0_pay1 (View.ld x0 r0_0)) (k0_pay5 (View.ld x0 r0_0)) (k0_pay7 (View.ld x1 r0_0))
        (k0_pay9 (View.ld x0 r0_0) (View.ld x1 r0_0) (View.ld x2 r0_0) (View.ld x3 r0_0) (View.ld x4 r0_1) (View.ld x4 r0_2)
          (View.ld x5 r0_3)) (ix2 r u)
      = blockAt x0 x1 x2 x3 x4 x5 r (2 : Fin 4) := by
  unfold k0_pay14
  show shapeCast S262144x1 (subf (broadcast S262144 (Ideal.ofBits .f32 0x00000000#32)) (k0_pay10 (F := Ideal) _ _ _ _)) _ (ix2 r u) = _
  rw [vector_as_column]
  show Ideal.ofBits .f32 0x00000000#32 - k0_pay10 (F := Ideal) _ _ _ _ (ix1 r) = _
  rw [Ideal.ofBits_zero_f32, zero_sub, dx_loaded]; rfl

/-- The fourth stored column, 0 - dy, is -dy. -/
theorem col3_eq (r : Fin 262144) (u : Fin 1) :
    k0_pay15 (F := Ideal) (k0_pay2 (View.ld x1 r0_0)) (k0_pay6 (View.ld x1 r0_0)) (k0_pay8 (View.ld x0 r0_0)) (ix2 r u)
      = blockAt x0 x1 x2 x3 x4 x5 r (3 : Fin 4) := by
  unfold k0_pay15
  show shapeCast S262144x1 (subf (broadcast S262144 (Ideal.ofBits .f32 0x00000000#32)) (k0_pay11 (F := Ideal) _ _ _)) _ (ix2 r u) = _
  rw [vector_as_column]
  show Ideal.ofBits .f32 0x00000000#32 - k0_pay11 (F := Ideal) _ _ _ (ix1 r) = _
  rw [Ideal.ofBits_zero_f32, zero_sub, dy_loaded]; rfl

/-! ## The block after the body -/

/-- The output block after the body is the right-hand side of the block's systems: each of the four stores is a
    column of that one function, and the four columns cover the block. -/
theorem out_eq : out0_6 (F := Ideal) x0 x1 x2 x3 x4 x5 = blockRhs x0 x1 x2 x3 x4 x5 := by
  funext y
  unfold out0_6
  refine View.canon_apply_of_pieces (blockRhs x0 x1 x2 x3 x4 x5) _ ?_ y (cover0_6 _ _ _ _ y)
  intro pc hpc
  rcases List.mem_cons.mp hpc with rfl | hpc
  · intro x
    obtain ⟨r, u, rfl⟩ : ∃ (r : Fin 262144) (u : Fin 1), x = ix2 r u := ⟨x 0, x 1, eq_ix2 x⟩
    show _ = blockRhs x0 x1 x2 x3 x4 x5 (r0_7.emb (ix2 r u))
    rw [emb_col3, blockRhs_apply]; exact col3_eq x0 x1 x2 x3 x4 x5 r u
  rcases List.mem_cons.mp hpc with rfl | hpc
  · intro x
    obtain ⟨r, u, rfl⟩ : ∃ (r : Fin 262144) (u : Fin 1), x = ix2 r u := ⟨x 0, x 1, eq_ix2 x⟩
    show _ = blockRhs x0 x1 x2 x3 x4 x5 (r0_6.emb (ix2 r u))
    rw [emb_col2, blockRhs_apply]; exact col2_eq x0 x1 x2 x3 x4 x5 r u
  rcases List.mem_cons.mp hpc with rfl | hpc
  · intro x
    obtain ⟨r, u, rfl⟩ : ∃ (r : Fin 262144) (u : Fin 1), x = ix2 r u := ⟨x 0, x 1, eq_ix2 x⟩
    show _ = blockRhs x0 x1 x2 x3 x4 x5 (r0_5.emb (ix2 r u))
    rw [emb_col1, blockRhs_apply]; exact col1_eq x0 x1 x2 x3 x4 x5 r u
  rcases List.mem_cons.mp hpc with rfl | hpc
  · intro x
    obtain ⟨r, u, rfl⟩ : ∃ (r : Fin 262144) (u : Fin 1), x = ix2 r u := ⟨x 0, x 1, eq_ix2 x⟩
    show _ = blockRhs x0 x1 x2 x3 x4 x5 (r0_4.emb (ix2 r u))
    rw [emb_col0, blockRhs_apply]; exact col0_eq x0 x1 x2 x3 x4 x5 r u
  exact absurd hpc List.not_mem_nil

end Pieces

end Cert.KernelIdeal.BlockValue

end
-- ==== Proof.KernelArray.lean ====
/-
  From blocks to the array: after the kernel's run the result array is the batch right-hand side of the six
  argument arrays.

  The grid has 32 points; point t stages block t of the four state and error vectors (systems 262144 t … 262144 t +
  262143), the matching 262144 rows of the weights, the whole two-entry target, and writes back block t of the
  result. So what point t writes back (the block's right-hand side of its input blocks) is block t of ONE function of
  the whole arrays, `Cert.HillRhs.rhs`: row r of block t is system 262144 t + r. The 32 result blocks tile the
  array (system p lies in block p / 262144), so the array ends holding that function everywhere.
-/
import proofs.«181317_j45638322487767_1_alg».proof.Proof.Gen.KernelIdeal.Value
import proofs.«181317_j45638322487767_1_alg».proof.Proof.KernelBlock
import proofs.«181317_j45638322487767_1_alg».proof.Proof.HillRhs
import Idealize.ShloMosaic.Lib.Pipeline.Value
import Idealize.ShloMosaic.Lib.ValueIdx

noncomputable section

namespace Cert.KernelIdeal.ArrayValue

open Cert.KernelIdeal Cert.KernelIdeal.Gen Cert.KernelIdeal.BlockValue
open Idealize.ShloMosaic Idealize.ShloMosaic.TcCoe Idealize.SL.Sem
open Idealize.ShloMosaic.Pipeline (Dat)
open Idealize.ShloMosaic.ValueIdx Cert.HillRhs

variable (m : (ℓ : Loc nD τ sig) → Buf (Elt Ideal) ℓ) (ρ : Dev nD → PrngReg)

/-! ## The index maps, decided once over the grid -/

/-- Every window that moves with the grid stages block t at point t, along the systems' axis; the weights' and the
    result's second axis, and the target, stay at block 0. -/
theorem idx_facts : ∀ t : Fin cfg0.N,
    win0_0.index t (0 : Fin 1) = win0_6.index t (0 : Fin 2)
    ∧ win0_1.index t (0 : Fin 1) = win0_6.index t (0 : Fin 2)
    ∧ win0_2.index t (0 : Fin 1) = win0_6.index t (0 : Fin 2)
    ∧ win0_3.index t (0 : Fin 1) = win0_6.index t (0 : Fin 2)
    ∧ win0_4.index t (0 : Fin 2) = win0_6.index t (0 : Fin 2)
    ∧ win0_4.index t (1 : Fin 2) = 0
    ∧ win0_5.index t (0 : Fin 1) = 0
    ∧ win0_6.index t (1 : Fin 2) = 0
    ∧ win0_6.index t (0 : Fin 2) = t.val :=
  (by decide +kernel : ∀ t : Fin grid0.N, _)

/-! ## A block entry is an array entry -/

/-- If the six input blocks hold, at row r, what the arrays hold at system p (and the target block is the target),
    then entry (r, k) of the block's right-hand side is entry (p, k) of the arrays'. -/
theorem block_entry (A0 A1 A2 A3 : FVec Ideal ⟨1, ![8388608]⟩ .f32) (A4 : FVec Ideal ⟨2, ![8388608, 2]⟩ .f32)
    (A5 : FVec Ideal ⟨1, ![2]⟩ .f32)
    (b0 b1 b2 b3 : Vec Ideal S262144 .f32) (b4 : Vec Ideal S262144x2 .f32) (b5 : Vec Ideal S2 .f32)
    (r : Fin 262144) (k : Fin 4) (p : Fin 8388608)
    (h0 : b0 (ix1 r) = A0 (ix1 p)) (h1 : b1 (ix1 r) = A1 (ix1 p)) (h2 : b2 (ix1 r) = A2 (ix1 p))
    (h3 : b3 (ix1 r) = A3 (ix1 p))
    (h40 : b4 (ix2 r (0 : Fin 2)) = A4 (ix2 p (0 : Fin 2))) (h41 : b4 (ix2 r (1 : Fin 2)) = A4 (ix2 p (1 : Fin 2)))
    (h50 : b5 (ix1 (0 : Fin 2)) = A5 (ix1 (0 : Fin 2))) (h51 : b5 (ix1 (1 : Fin 2)) = A5 (ix1 (1 : Fin 2))) :
    blockRhs b0 b1 b2 b3 b4 b5 (ix2 r k) = rhs A0 A1 A2 A3 A4 A5 (ix2 p k) := by
  rw [blockRhs_apply, rhs_apply]
  unfold blockAt rhsAt
  rw [h0, h1, h2, h3, h40, h41, h50, h51]

/-! ## What a point writes back -/

/-- Point t writes back block t of the arrays' right-hand side. -/
theorem flushed_eq (c : Dev nD) (t : Fin cfg0.N) :
    (dats m 0 c).flushed 6 t = ((cfg0.win 6).blk t).view.read (Elt Ideal)
      (rhs (V m c main_arg0) (V m c main_arg1) (V m c main_arg2) (V m c main_arg3) (V m c main_arg4) (V m c main_arg5)) := by
  rw [Cert.KernelIdeal.Value.flushed6, out_eq]
  obtain ⟨e0, e1, e2, e3, e4, e5, e6, e7, e8⟩ := idx_facts t
  have ht : t.val < 32 := Nat.lt_of_lt_of_eq t.isLt N_0
  funext j
  obtain ⟨r, k, rfl⟩ : ∃ (r : Fin 262144) (k : Fin 4), j = ix2 r k := ⟨j 0, j 1, eq_ix2 j⟩
  have hr : r.val < 262144 := r.isLt
  have hp : win0_6.index t (0 : Fin 2) * 262144 + r.val < 8388608 := by omega
  refine (block_entry (V m c main_arg0) (V m c main_arg1) (V m c main_arg2) (V m c main_arg3) (V m c main_arg4)
    (V m c main_arg5) (iblk m c 0 t) (iblk m c 1 t) (iblk m c 2 t) (iblk m c 3 t) (iblk m c 4 t) (iblk m c 5 t) r k
    ⟨win0_6.index t (0 : Fin 2) * 262144 + r.val, hp⟩ ?_ ?_ ?_ ?_ ?_ ?_ ?_ ?_).trans ?_
  · show V m c main_arg0 (((cfg0.win 0).blk t).view.emb (ix1 r)) = V m c main_arg0 (ix1 ⟨_, hp⟩)
    refine congrArg _ (funext fun a => Fin.ext ?_)
    match a with
    | ⟨0, _⟩ => show win0_0.index t (0 : Fin 1) * 262144 + 1 * r.val = win0_6.index t (0 : Fin 2) * 262144 + r.val; omega
  · show V m c main_arg1 (((cfg0.win 1).blk t).view.emb (ix1 r)) = V m c main_arg1 (ix1 ⟨_, hp⟩)
    refine congrArg _ (funext fun a => Fin.ext ?_)
    match a with
    | ⟨0, _⟩ => show win0_1.index t (0 : Fin 1) * 262144 + 1 * r.val = win0_6.index t (0 : Fin 2) * 262144 + r.val; omega
  · show V m c main_arg2 (((cfg0.win 2).blk t).view.emb (ix1 r)) = V m c main_arg2 (ix1 ⟨_, hp⟩)
    refine congrArg _ (funext fun a => Fin.ext ?_)
    match a with
    | ⟨0, _⟩ => show win0_2.index t (0 : Fin 1) * 262144 + 1 * r.val = win0_6.index t (0 : Fin 2) * 262144 + r.val; omega
  · show V m c main_arg3 (((cfg0.win 3).blk t).view.emb (ix1 r)) = V m c main_arg3 (ix1 ⟨_, hp⟩)
    refine congrArg _ (funext fun a => Fin.ext ?_)
    match a with
    | ⟨0, _⟩ => show win0_3.index t (0 : Fin 1) * 262144 + 1 * r.val = win0_6.index t (0 : Fin 2) * 262144 + r.val; omega
  · show V m c main_arg4 (((cfg0.win 4).blk t).view.emb (ix2 r (0 : Fin 2))) = V m c main_arg4 (ix2 ⟨_, hp⟩ (0 : Fin 2))
    refine congrArg _ (funext fun a => Fin.ext ?_)
    match a with
    | ⟨0, _⟩ => show win0_4.index t (0 : Fin 2) * 262144 + 1 * r.val = win0_6.index t (0 : Fin 2) * 262144 + r.val; omega
    | ⟨1, _⟩ => show win0_4.index t (1 : Fin 2) * 2 + 1 * 0 = 0; omega
  · show V m c main_arg4 (((cfg0.win 4).blk t).view.emb (ix2 r (1 : Fin 2))) = V m c main_arg4 (ix2 ⟨_, hp⟩ (1 : Fin 2))
    refine congrArg _ (funext fun a => Fin.ext ?_)
    match a with
    | ⟨0, _⟩ => show win0_4.index t (0 : Fin 2) * 262144 + 1 * r.val = win0_6.index t (0 : Fin 2) * 262144 + r.val; omega
    | ⟨1, _⟩ => show win0_4.index t (1 : Fin 2) * 2 + 1 * 1 = 1; omega
  · show V m c main_arg5 (((cfg0.win 5).blk t).view.emb (ix1 (0 : Fin 2))) = V m c main_arg5 (ix1 (0 : Fin 2))
    refine congrArg _ (funext fun a => Fin.ext ?_)
    match a with
    | ⟨0, _⟩ => show win0_5.index t (0 : Fin 1) * 2 + 1 * 0 = 0; omega
  · show V m c main_arg5 (((cfg0.win 5).blk t).view.emb (ix1 (1 : Fin 2))) = V m c main_arg5 (ix1 (1 : Fin 2))
    refine congrArg _ (funext fun a => Fin.ext ?_)
    match a with
    | ⟨0, _⟩ => show win0_5.index t (0 : Fin 1) * 2 + 1 * 1 = 1; omega
  · show rhs (V m c main_arg0) (V m c main_arg1) (V m c main_arg2) (V m c main_arg3) (V m c main_arg4) (V m c main_arg5)
        (ix2 ⟨_, hp⟩ k)
      = rhs (V m c main_arg0) (V m c main_arg1) (V m c main_arg2) (V m c main_arg3) (V m c main_arg4) (V m c main_arg5)
        (((cfg0.win 6).blk t).view.emb (ix2 r k))
    refine congrArg _ (funext fun a => Fin.ext ?_)
    match a with
    | ⟨0, _⟩ => show win0_6.index t (0 : Fin 2) * 262144 + r.val = win0_6.index t (0 : Fin 2) * 262144 + 1 * r.val; omega
    | ⟨1, _⟩ => show k.val = win0_6.index t (1 : Fin 2) * 4 + 1 * k.val; omega

/-! ## The blocks cover the array -/

/-- An index of the result array is in point t's block iff each coordinate is in the block's range on its axis. -/
theorem mem_blk (t : Fin cfg0.N) (i : S8388608x4.Idx) :
    i ∈ ((cfg0.win 6).blk t).view.set ↔ ∀ a : Fin 2, win0_6.index t a * S262144x4.size a ≤ (i a).val
      ∧ (i a).val < win0_6.index t a * S262144x4.size a + S262144x4.size a := by
  show i ∈ ((View.whole main_v0).slice (win0_6.rect t)).set ↔ _
  rw [View.set_slice_whole, Rect.mem_set_unit]
  exact Iff.rfl

/-- System p lies in block p / 262144: every index of the result array is in some point's block. -/
theorem cover (i : S8388608x4.Idx) :
    ∃ t : Fin cfg0.N, (cfg0.win 6).flush t = true ∧ i ∈ ((cfg0.win 6).blk t).view.set := by
  have hi0 : (i 0).val < 8388608 := (i 0).isLt
  have hi1 : (i 1).val < 4 := (i 1).isLt
  obtain ⟨t, htv⟩ : ∃ t : Fin cfg0.N, t.val = (i 0).val / 262144 :=
    ⟨⟨(i 0).val / 262144, Nat.lt_of_lt_of_eq (by omega : (i 0).val / 262144 < 32) N_0.symm⟩, rfl⟩
  obtain ⟨e0, e1, e2, e3, e4, e5, e6, e7, e8⟩ := idx_facts t
  refine ⟨t, flush0_6 t, ?_⟩
  rw [mem_blk]
  intro a
  match a with
  | ⟨0, _⟩ =>
    show win0_6.index t (0 : Fin 2) * 262144 ≤ (i 0).val ∧ (i 0).val < win0_6.index t (0 : Fin 2) * 262144 + 262144
    omega
  | ⟨1, _⟩ =>
    show win0_6.index t (1 : Fin 2) * 4 ≤ (i 1).val ∧ (i 1).val < win0_6.index t (1 : Fin 2) * 4 + 4
    omega

/-! ## The array after the run -/

/-- The result array after the run is the right-hand side of the argument arrays as launched. -/
theorem final (c : Dev nD) :
    (dats m 0 c).arrAt 6 cfg0.N
      = rhs (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (dats m 0 c).arrAt_eq_of_cover 6
    (rhs (V m c main_arg0) (V m c main_arg1) (V m c main_arg2) (V m c main_arg3) (V m c main_arg4) (V m c main_arg5))
    (fun t _ => flushed_eq m c t) cover

/-- The kernel's run: every weakly fair execution terminates with the result array at the right-hand side of the
    arguments, the arguments unchanged. -/
theorem run : θ_run defs (onTc (τ := τ) (main (F := Ideal))) ⟨m, fun _ => 0, ρ⟩ fun r => ∀ c : Dev nD,
      r.2.mem ((c : Thread nD τ).loc main_v0)
        = rhs (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.KernelIdeal.ArrayValue

end
-- ==== Proof.lean ====
/- The claim for a batch of 8388608 independent two-gene circuits: a kernel that streams the systems through in 32
   blocks of 262144 and writes, per system, the derivatives dx, dy and their negations, against a reference that
   computes the same four columns on whole arrays.

   At the ideal instance both programs compute ONE function of the six argument arrays, `Cert.HillRhs.rhs`
   (Proof/HillRhs.lean): with s(v) = (v/10)^2, K = 1/4, act(s) = s / (K + s), rep(s) = K / (K + s) and the control input
   u = w0 * ((x + e_x) - t0) + w1 * ((y + e_y) - t1),
       dx = 10 * (((1 * act(s x) + 0.2 * rep(s y)) - 1.1 * (x/10)) + u * act(s x)),
       dy = 10 * ((1 * act(s y) + 0.2 * rep(s x)) - 1.1 * (y/10)),
   and the result's columns are dx, dy, -dx, -dy. The two programs differ in three spellings, each an identity on
   every extended real, so that the precondition (finite inputs) is never opened:
     * the kernel multiplies a state by the named constant 1/10, the reference divides it by the word for ten;
     * the kernel adds the two control terms, the reference sums them over a two-entry axis starting from zero;
     * the kernel writes a negation as 0 - a, the reference negates.
   Proof/ReferenceValue.lean reads the reference's result entry by entry (its two stacks on a new last axis by
   Proof/LibColumnStack.lean); Proof/KernelBlock.lean reads what the kernel body leaves in one output block off its
   four column stores; Proof/KernelArray.lean carries the blocks to the whole result array (block t of the result is
   the right-hand side of block t of the arguments, and the 32 blocks tile the array). Both frames of the kernel are
   the generated ones; the reference's frame is its generated run with the result dropped. The idealization's ledger
   has one rule applied twice: the literal 0.1 named the exact tenth. -/
import proofs.«181317_j45638322487767_1_alg».proof.Defs
import proofs.«181317_j45638322487767_1_alg».proof.Proof.Gen.Kernel
import proofs.«181317_j45638322487767_1_alg».proof.Proof.Gen.Kernel.Skeleton
import proofs.«181317_j45638322487767_1_alg».proof.Proof.Gen.Kernel.Launch
import proofs.«181317_j45638322487767_1_alg».proof.Proof.Gen.Kernel.Points
import proofs.«181317_j45638322487767_1_alg».proof.Proof.Gen.Kernel.Frame
import proofs.«181317_j45638322487767_1_alg».proof.Proof.Gen.KernelIdeal
import proofs.«181317_j45638322487767_1_alg».proof.Proof.Gen.KernelIdeal.Skeleton
import proofs.«181317_j45638322487767_1_alg».proof.Proof.Gen.KernelIdeal.Launch
import proofs.«181317_j45638322487767_1_alg».proof.Proof.Gen.KernelIdeal.Points
import proofs.«181317_j45638322487767_1_alg».proof.Proof.Gen.KernelIdeal.Frame
import proofs.«181317_j45638322487767_1_alg».proof.Proof.Gen.ReferenceIdeal
import proofs.«181317_j45638322487767_1_alg».proof.Proof.Gen.KernelIdeal.Value
import proofs.«181317_j45638322487767_1_alg».proof.Proof.Gen.ReferenceIdeal.Run
import proofs.«181317_j45638322487767_1_alg».proof.Proof.Gen.ReferenceIdeal.Read
import proofs.«181317_j45638322487767_1_alg».proof.Proof.Gen.Pre_finite_inputs
import proofs.«181317_j45638322487767_1_alg».proof.Proof.HillRhs
import proofs.«181317_j45638322487767_1_alg».proof.Proof.ReferenceValue
import proofs.«181317_j45638322487767_1_alg».proof.Proof.KernelArray
import Idealize.ShloMosaic.Adequacy
import Idealize.ShloMosaic.Init

noncomputable section

namespace Cert.Proof

open Idealize.ShloMosaic Idealize.SL.Sem Cert.HillRhs

/-- The kernel as printed runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization named the literal 0.1 the exact tenth, at both of its sites. -/
theorem preserves : Cert.preserves_Kernel_KernelIdeal :=
  ⟨IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl⟩

/-- From arguments that agree, the kernel's result array and the reference's both end at the right-hand side of the
    arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.RefValue.result_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
